-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16384x16384 .f32) (main_arg1 : FVec F S16384x64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x16384 : Shape := ⟨2, ![16384, 16384]⟩
abbrev S16384x64 : Shape := ⟨2, ![16384, 64]⟩
abbrev S256x8192 : Shape := ⟨2, ![256, 8192]⟩
abbrev S8192x64 : Shape := ⟨2, ![8192, 64]⟩
abbrev S256x64 : Shape := ⟨2, ![256, 64]⟩

abbrev nBuf : Space → Nat
  | .hbm => 3
  | .vmem => 8
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S16384x64, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S8192x64, .f32⟩
  | .local _ .vmem, ⟨5, _⟩ => ⟨S8192x64, .f32⟩
  | .local _ .vmem, ⟨6, _⟩ => ⟨S256x64, .f32⟩
  | .local _ .vmem, ⟨7, _⟩ => ⟨S256x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  inb_S8192x64_S8192x64_0_0 : ∀ a, (![0, 0] : Fin 2 → Nat) a + S8192x64.size a ≤ S8192x64.size a
  h_S8192x64 : 0 < S8192x64.numel
  inb_S256x64_S256x64_0_0 : ∀ a, (![0, 0] : Fin 2 → Nat) a + S256x64.size a ≤ S256x64.size a
  h_S256x64 : 0 < S256x64.numel
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S16384x16384.size a
  hwx0_0 : ∀ i : grid0.Coords, EltTy.bits .f32 = 32 ∨ (Rect.block (s := S16384x16384) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S16384x16384.size a
  hwx0_1 : ∀ i : grid0.Coords, EltTy.bits .f32 = 32 ∨ (Rect.block (s := S16384x16384) S256x8192.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S16384x64.size a
  hwx0_2 : ∀ i : grid0.Coords, EltTy.bits .f32 = 32 ∨ (Rect.block (s := S16384x64) S8192x64.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S16384x64.size a
  hwx0_3 : ∀ i : grid0.Coords, EltTy.bits .f32 = 32 ∨ (Rect.block (s := S16384x64) S8192x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S16384x64.size a
  hwx0_4 : ∀ i : grid0.Coords, EltTy.bits .f32 = 32 ∨ (Rect.block (s := S16384x64) S256x64.size (cc0_transform_4 i) (hinb0_4 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8192x64.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8192x64.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x16384 : Shape := ⟨2, ![16384, 16384]⟩
abbrev S16384x64 : Shape := ⟨2, ![16384, 64]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384x64, .f32⟩
  | .hbm, ⟨5, _⟩ => ⟨S16384x64, .i1⟩
  | .hbm, ⟨6, _⟩ => ⟨S_, .f32⟩
  | .hbm, ⟨7, _⟩ => ⟨S16384x64, .f32⟩
  | .hbm, ⟨8, _⟩ => ⟨S16384x64, .f32⟩
  | .hbm, ⟨9, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  dot_S16384x16384_S16384x64_S16384x64_1_0_0_1_n_n_wf : DotDims.WF S16384x16384 S16384x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.K.Body.lean ====
/-
  The frame run of the kernel program `Kernel`, for every float instance.

  The pallas_call hands ONE array to two windows, twice: the adjacency matrix `adj` (16384 x 16384) is read through
  window 0 (row block i, left half of the columns) and window 1 (row block i, right half), and the embedding matrix
  `embeds` (16384 x 64) through window 2 (upper half of the rows) and window 3 (lower half). The two windows on an
  array each hold HALF of the array's share: the array's full points-to is split along the share, so both may read
  and neither may write. Window 4 is the output (row block i of the result), held at the full share.

  At grid point i the body loads the four input blocks, forms
      acc = A_left(i) * E_upper + A_right(i) * E_lower          (two matrix products into zero accumulators, added)
  and stores  where(acc >= 0, acc, 0.5 * acc)  over the whole output block. It also loads the output block before the
  store and never uses that value.

  What is proved here: every weakly fair execution of @main terminates without a fault, and at the end every
  windowed array holds what the pipeline library computes from the proof data (`Dat.arrAt … N`): an input array its
  entry contents, the output array its entry contents overwritten block by block with what the body left.
-/
import proofs.«147853_g84799834292721_cont_9to1_m_613_8_alg».proof.Proof.Gen.Kernel.Launch
import proofs.«147853_g84799834292721_cont_9to1_m_613_8_alg».proof.Proof.Gen.Kernel.Skeleton
import proofs.«147853_g84799834292721_cont_9to1_m_613_8_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

/-- @main is the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there or
    not (unfetched, the block index has not moved since the last fetch): windows 0 and 1 are fetched at every point,
    windows 2 and 3 at the first point only. One statement per window, the window a literal. -/
theorem before_in_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its buffer -/

abbrev rA : Rect S256x8192 := Rect.unit (s := S256x8192) ![0, 0] S256x8192.size inb_S256x8192_S256x8192_0_0
abbrev rE : Rect S8192x64 := Rect.unit (s := S8192x64) ![0, 0] S8192x64.size inb_S8192x64_S8192x64_0_0
abbrev rO : Rect S256x64 := Rect.unit (s := S256x64) ![0, 0] S256x64.size inb_S256x64_S256x64_0_0

/-- The output staging buffer after the body, from the four input blocks (`a0`, `a1` the two column halves of the
    adjacency row block, `e0`, `e1` the two row halves of the embeddings): its one store, over the whole buffer. -/
def outBlk (a0 a1 : Vec F S256x8192 .f32) (e0 e1 : Vec F S8192x64 .f32) : Vec F S256x64 .f32 :=
  View.canon [⟨rO, k0_pay1 (View.ld a0 rA) (View.ld e0 rE) (View.ld a1 rA) (View.ld e1 rE)⟩]

/-- The store covers the buffer. -/
theorem cover_out (p0 : Vec F S256x64 .f32) (y : S256x64.Idx) :
    ∃ pc ∈ ([⟨rO, p0⟩] : List (View.Piece (Elt F) S256x64 .f32)), y ∈ pc.1.set :=
  View.cover_of_tiled [⟨rO, p0⟩] S256x64.size (by rfl) y

/-! ## The body's triple -/

set_option maxHeartbeats 1000000 in
/-- The body on whole staging memrefs — the four inputs' at read contents, the output's at anything — runs to the
    continuation holding the inputs' as they were and the output's at `outBlk` of the inputs'. -/
theorem sound_kernel (c : Dev nD) (E : Set ℕ) (i : grid0.Coords)
    (arg1 : Memref sig .tc .vmem S256x8192 .f32) (harg1 : arg1.IsWhole) (arg2 : Memref sig .tc .vmem S256x8192 .f32) (harg2 : arg2.IsWhole)
    (arg3 : Memref sig .tc .vmem S8192x64 .f32) (harg3 : arg3.IsWhole) (arg4 : Memref sig .tc .vmem S8192x64 .f32) (harg4 : arg4.IsWhole)
    (arg5 : Memref sig .tc .vmem S256x64 .f32) (harg5 : arg5.IsWhole)
    (a0 a1 : Vec F S256x8192 .f32) (e0 e1 : Vec F S8192x64 .f32) (K : PUnit → sProp 𝕄) :
    iprop(owns (c : Thread nD τ) arg1 fullShare a0 ∗ owns (c : Thread nD τ) arg2 fullShare a1
        ∗ owns (c : Thread nD τ) arg3 fullShare e0 ∗ owns (c : Thread nD τ) arg4 fullShare e1
        ∗ (∃ d, owns (c : Thread nD τ) arg5 fullShare d)
        ∗ (iprop(owns (c : Thread nD τ) arg1 fullShare a0 ∗ owns (c : Thread nD τ) arg2 fullShare a1
            ∗ owns (c : Thread nD τ) arg3 fullShare e0 ∗ owns (c : Thread nD τ) arg4 fullShare e1
            ∗ owns (c : Thread nD τ) arg5 fullShare (outBlk a0 a1 e0 e1)) -∗ K ⟨⟩))
      ⊢ wp frame (wpE (defs₀ (F := F)) Variants.none c none) E (cc0__gcn_block_kernel i arg1 harg1 arg2 harg2 arg3 harg3 arg4 harg4 arg5 harg5) K := by
  simp only [cc0__gcn_block_kernel_eq_skeleton]; unfold cc0__gcn_block_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data of the pipeline on core `c`: the arrays as the region finds them; after the body at point `t`
    each input's buffer at its block and the output's at `outBlk` of the input blocks; no invariant carried; nothing
    owed; the two windows on `adj` at the two halves of its share, likewise the two on `embeds`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := BI.emp
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

theorem before_0 (c : Dev nD) (t : Fin cfg0.N) (d) : (dats m 0 c).before 0 t d = iblk m c 0 t :=
  before_in_0_of m (dats m 0 c) (A_eq m c 0) (after_0 m c) t d
theorem before_1 (c : Dev nD) (t : Fin cfg0.N) (d) : (dats m 0 c).before 1 t d = iblk m c 1 t :=
  before_in_1_of m (dats m 0 c) (A_eq m c 1) (after_1 m c) t d
theorem before_2 (c : Dev nD) (t : Fin cfg0.N) (d) : (dats m 0 c).before 2 t d = iblk m c 2 t :=
  before_in_2_of m (dats m 0 c) (A_eq m c 2) (after_2 m c) t d
theorem before_3 (c : Dev nD) (t : Fin cfg0.N) (d) : (dats m 0 c).before 3 t d = iblk m c 3 t :=
  before_in_3_of m (dats m 0 c) (A_eq m c 3) (after_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.K.Run.lean ====
/-
  The launch of `Kernel`'s one region, and what every windowed array holds at the end.

  The region is entered with the buffers behind the windows' arrays each whole at the full share: `adj`, `embeds` and
  the result. The pipeline wants one points-to per WINDOW. `adj`'s is split along the share into its left and right
  halves, one for window 0 and one for window 1; `embeds`' likewise for windows 2 and 3; the result's goes to window 4
  whole. Nothing else is routed through the region (there is no scratch buffer, no other array).
-/
import proofs.«147853_g84799834292721_cont_9to1_m_613_8_alg».proof.Proof.K.Body
import Idealize.ShloMosaic.Lib.Pipeline.Launch

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three buffers behind the five windows' arrays. -/
theorem arrRefs_eq : Finset.univ.image (Pipeline.arrRef spec0) = {main_arg0, main_arg1, main_v0} := by decide

/-- The pipeline's per-window points-tos, each window's array being a whole buffer: window `w` holds the buffer behind
    its array at its share. -/
theorem arrays_eq (c : Dev nD) (Fs : (w : Fin cfg0.W) → Buf (Elt F) ((cfg0.win w).arr.view.loc (c.tc : Thread nD τ))) :
    (dats m 0 c).arrays Fs
      = bigSep Finset.univ fun w : Fin cfg0.W =>
          ((((c.tc : Thread nD τ).loc (Pipeline.arrRef spec0 w)) ↦{(dats m 0 c).share w} Fs w : sProp 𝕄)) := by
  unfold Dat.arrays
  exact bigSep_congr fun w _ => by rw [(arr_whole0 w).set_eq_univ]

/-- The arrays' buffers, whole at the full share at the entry contents, are the pipeline's per-window points-tos at
    entry: each input array's share split in two for the two windows that read it. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, bigSep_W0]
  unfold Pipeline.arrBufs
  rw [arrRefs_eq, bigSep_insert (by decide), bigSep_insert (by decide), bigSep_singleton]
  refine (show iprop((((c.tc : Thread nD τ).loc main_arg0) ↦{fullShare} V m c main_arg0)
      ∗ (((c.tc : Thread nD τ).loc main_arg1) ↦{fullShare} V m c main_arg1)
      ∗ (((c.tc : Thread nD τ).loc main_v0) ↦{fullShare} V m c main_v0)) ⊢ _ from ?_)
  iintro ⟨Ha, He, Ho⟩
  ihave Ha := (pointsTo_share (PosShare.mem_left_op_right fullShare)).1 $$ Ha
  icases Ha with ⟨Ha₁, Ha₂⟩
  ihave He := (pointsTo_share (PosShare.mem_left_op_right fullShare)).1 $$ He
  icases He with ⟨He₁, He₂⟩
  isplitl [Ha₁]; · iexact Ha₁
  isplitl [Ha₂]; · iexact Ha₂
  isplitl [He₁]; · iexact He₁
  isplitl [He₂]; · iexact He₂
  iexact Ho

/-- What the run ends in: every windowed array at what the library computes from the proof data. -/
def RunPost (r : PUnit × MemSt nD τ sig (Elt F)) : Prop :=
  ∀ (c : Dev nD) (w : Fin cfg0.W), r.2.mem ((cfg0.spec w).arr.view.loc (c.tc : Thread nD τ)) = (dats m 0 c).arrAt w cfg0.N

set_option backward.isDefEq.respectTransparency.types false in
/-- At the compiled mesh, for any values, from any memory with zero counters: every weakly fair execution of @main
    terminates without a fault, every windowed array ending at `Dat.arrAt … N`. -/
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_split m)
    (X := fun _ => iprop(emp)) (Y := fun _ => iprop(emp)) (Z := fun _ => iprop(emp))
    (hX := fun c => by rw [unscopedRest0_eq]; iintro -; isplitr <;> iempintro)
    (hin := fun c => by
      rw [scopedRest0_eq, show (dats m 0 c).Φ 0 = (BI.emp : sProp 𝕄) from rfl]
      iintro -; iempintro)
    (hout := fun c => by
      rw [scopedRest0_eq, show (dats m 0 c).Φ (Fin.last cfg0.N) = (BI.emp : sProp 𝕄) from rfl]
      iintro -; isplitr <;> iempintro)
    (QY := fun _ _ => True)
    (hY := fun c s' => by
      iintro ⟨-, -, HSI⟩; imodintro
      isplitr; · ipureintro; trivial
      iexact HSI)
    (hQ := fun _ h c w => (h c).1 w)

/-- An input window's array ends as it was launched. -/
theorem arrAt_in_0 (c : Dev nD) : (dats m 0 c).arrAt 0 cfg0.N = m ((c.tc : Thread nD τ).loc main_arg0) :=
  ((dats m 0 c).arrAt_in 0 rfl _).trans (A_eq m c 0)
theorem arrAt_in_2 (c : Dev nD) : (dats m 0 c).arrAt 2 cfg0.N = m ((c.tc : Thread nD τ).loc main_arg1) :=
  ((dats m 0 c).arrAt_in 2 rfl _).trans (A_eq m c 2)

/-- THE FRAME: @main runs to the end, nothing faulting, the two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (arrAt_in_0 m c), (h c 2).trans (arrAt_in_2 m c)⟩) (run_main m ρ)

end Cert.Kernel.Frame

end
-- ==== Proof.KI.Body.lean ====
/-
  The frame run of the kernel program `KernelIdeal`, for every float instance.

  The pallas_call hands ONE array to two windows, twice: the adjacency matrix `adj` (16384 x 16384) is read through
  window 0 (row block i, left half of the columns) and window 1 (row block i, right half), and the embedding matrix
  `embeds` (16384 x 64) through window 2 (upper half of the rows) and window 3 (lower half). The two windows on an
  array each hold HALF of the array's share: the array's full points-to is split along the share, so both may read
  and neither may write. Window 4 is the output (row block i of the result), held at the full share.

  At grid point i the body loads the four input blocks, forms
      acc = A_left(i) * E_upper + A_right(i) * E_lower          (two matrix products into zero accumulators, added)
  and stores  where(acc >= 0, acc, 0.5 * acc)  over the whole output block. It also loads the output block before the
  store and never uses that value.

  What is proved here: every weakly fair execution of @main terminates without a fault, and at the end every
  windowed array holds what the pipeline library computes from the proof data (`Dat.arrAt … N`): an input array its
  entry contents, the output array its entry contents overwritten block by block with what the body left.
-/
import proofs.«147853_g84799834292721_cont_9to1_m_613_8_alg».proof.Proof.Gen.KernelIdeal.Launch
import proofs.«147853_g84799834292721_cont_9to1_m_613_8_alg».proof.Proof.Gen.KernelIdeal.Skeleton
import proofs.«147853_g84799834292721_cont_9to1_m_613_8_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

/-- @main is the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there or
    not (unfetched, the block index has not moved since the last fetch): windows 0 and 1 are fetched at every point,
    windows 2 and 3 at the first point only. One statement per window, the window a literal. -/
theorem before_in_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its buffer -/

abbrev rA : Rect S256x8192 := Rect.unit (s := S256x8192) ![0, 0] S256x8192.size inb_S256x8192_S256x8192_0_0
abbrev rE : Rect S8192x64 := Rect.unit (s := S8192x64) ![0, 0] S8192x64.size inb_S8192x64_S8192x64_0_0
abbrev rO : Rect S256x64 := Rect.unit (s := S256x64) ![0, 0] S256x64.size inb_S256x64_S256x64_0_0

/-- The output staging buffer after the body, from the four input blocks (`a0`, `a1` the two column halves of the
    adjacency row block, `e0`, `e1` the two row halves of the embeddings): its one store, over the whole buffer. -/
def outBlk (a0 a1 : Vec F S256x8192 .f32) (e0 e1 : Vec F S8192x64 .f32) : Vec F S256x64 .f32 :=
  View.canon [⟨rO, k0_pay1 (View.ld a0 rA) (View.ld e0 rE) (View.ld a1 rA) (View.ld e1 rE)⟩]

/-- The store covers the buffer. -/
theorem cover_out (p0 : Vec F S256x64 .f32) (y : S256x64.Idx) :
    ∃ pc ∈ ([⟨rO, p0⟩] : List (View.Piece (Elt F) S256x64 .f32)), y ∈ pc.1.set :=
  View.cover_of_tiled [⟨rO, p0⟩] S256x64.size (by rfl) y

/-! ## The body's triple -/

set_option maxHeartbeats 1000000 in
/-- The body on whole staging memrefs — the four inputs' at read contents, the output's at anything — runs to the
    continuation holding the inputs' as they were and the output's at `outBlk` of the inputs'. -/
theorem sound_kernel (c : Dev nD) (E : Set ℕ) (i : grid0.Coords)
    (arg1 : Memref sig .tc .vmem S256x8192 .f32) (harg1 : arg1.IsWhole) (arg2 : Memref sig .tc .vmem S256x8192 .f32) (harg2 : arg2.IsWhole)
    (arg3 : Memref sig .tc .vmem S8192x64 .f32) (harg3 : arg3.IsWhole) (arg4 : Memref sig .tc .vmem S8192x64 .f32) (harg4 : arg4.IsWhole)
    (arg5 : Memref sig .tc .vmem S256x64 .f32) (harg5 : arg5.IsWhole)
    (a0 a1 : Vec F S256x8192 .f32) (e0 e1 : Vec F S8192x64 .f32) (K : PUnit → sProp 𝕄) :
    iprop(owns (c : Thread nD τ) arg1 fullShare a0 ∗ owns (c : Thread nD τ) arg2 fullShare a1
        ∗ owns (c : Thread nD τ) arg3 fullShare e0 ∗ owns (c : Thread nD τ) arg4 fullShare e1
        ∗ (∃ d, owns (c : Thread nD τ) arg5 fullShare d)
        ∗ (iprop(owns (c : Thread nD τ) arg1 fullShare a0 ∗ owns (c : Thread nD τ) arg2 fullShare a1
            ∗ owns (c : Thread nD τ) arg3 fullShare e0 ∗ owns (c : Thread nD τ) arg4 fullShare e1
            ∗ owns (c : Thread nD τ) arg5 fullShare (outBlk a0 a1 e0 e1)) -∗ K ⟨⟩))
      ⊢ wp frame (wpE (defs₀ (F := F)) Variants.none c none) E (cc0__gcn_block_kernel i arg1 harg1 arg2 harg2 arg3 harg3 arg4 harg4 arg5 harg5) K := by
  simp only [cc0__gcn_block_kernel_eq_skeleton]; unfold cc0__gcn_block_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data of the pipeline on core `c`: the arrays as the region finds them; after the body at point `t`
    each input's buffer at its block and the output's at `outBlk` of the input blocks; no invariant carried; nothing
    owed; the two windows on `adj` at the two halves of its share, likewise the two on `embeds`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := BI.emp
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

theorem before_0 (c : Dev nD) (t : Fin cfg0.N) (d) : (dats m 0 c).before 0 t d = iblk m c 0 t :=
  before_in_0_of m (dats m 0 c) (A_eq m c 0) (after_0 m c) t d
theorem before_1 (c : Dev nD) (t : Fin cfg0.N) (d) : (dats m 0 c).before 1 t d = iblk m c 1 t :=
  before_in_1_of m (dats m 0 c) (A_eq m c 1) (after_1 m c) t d
theorem before_2 (c : Dev nD) (t : Fin cfg0.N) (d) : (dats m 0 c).before 2 t d = iblk m c 2 t :=
  before_in_2_of m (dats m 0 c) (A_eq m c 2) (after_2 m c) t d
theorem before_3 (c : Dev nD) (t : Fin cfg0.N) (d) : (dats m 0 c).before 3 t d = iblk m c 3 t :=
  before_in_3_of m (dats m 0 c) (A_eq m c 3) (after_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KI.Run.lean ====
/-
  The launch of `KernelIdeal`'s one region, and what every windowed array holds at the end.

  The region is entered with the buffers behind the windows' arrays each whole at the full share: `adj`, `embeds` and
  the result. The pipeline wants one points-to per WINDOW. `adj`'s is split along the share into its left and right
  halves, one for window 0 and one for window 1; `embeds`' likewise for windows 2 and 3; the result's goes to window 4
  whole. Nothing else is routed through the region (there is no scratch buffer, no other array).
-/
import proofs.«147853_g84799834292721_cont_9to1_m_613_8_alg».proof.Proof.KI.Body
import Idealize.ShloMosaic.Lib.Pipeline.Launch

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three buffers behind the five windows' arrays. -/
theorem arrRefs_eq : Finset.univ.image (Pipeline.arrRef spec0) = {main_arg0, main_arg1, main_v0} := by decide

/-- The pipeline's per-window points-tos, each window's array being a whole buffer: window `w` holds the buffer behind
    its array at its share. -/
theorem arrays_eq (c : Dev nD) (Fs : (w : Fin cfg0.W) → Buf (Elt F) ((cfg0.win w).arr.view.loc (c.tc : Thread nD τ))) :
    (dats m 0 c).arrays Fs
      = bigSep Finset.univ fun w : Fin cfg0.W =>
          ((((c.tc : Thread nD τ).loc (Pipeline.arrRef spec0 w)) ↦{(dats m 0 c).share w} Fs w : sProp 𝕄)) := by
  unfold Dat.arrays
  exact bigSep_congr fun w _ => by rw [(arr_whole0 w).set_eq_univ]

/-- The arrays' buffers, whole at the full share at the entry contents, are the pipeline's per-window points-tos at
    entry: each input array's share split in two for the two windows that read it. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, bigSep_W0]
  unfold Pipeline.arrBufs
  rw [arrRefs_eq, bigSep_insert (by decide), bigSep_insert (by decide), bigSep_singleton]
  refine (show iprop((((c.tc : Thread nD τ).loc main_arg0) ↦{fullShare} V m c main_arg0)
      ∗ (((c.tc : Thread nD τ).loc main_arg1) ↦{fullShare} V m c main_arg1)
      ∗ (((c.tc : Thread nD τ).loc main_v0) ↦{fullShare} V m c main_v0)) ⊢ _ from ?_)
  iintro ⟨Ha, He, Ho⟩
  ihave Ha := (pointsTo_share (PosShare.mem_left_op_right fullShare)).1 $$ Ha
  icases Ha with ⟨Ha₁, Ha₂⟩
  ihave He := (pointsTo_share (PosShare.mem_left_op_right fullShare)).1 $$ He
  icases He with ⟨He₁, He₂⟩
  isplitl [Ha₁]; · iexact Ha₁
  isplitl [Ha₂]; · iexact Ha₂
  isplitl [He₁]; · iexact He₁
  isplitl [He₂]; · iexact He₂
  iexact Ho

/-- What the run ends in: every windowed array at what the library computes from the proof data. -/
def RunPost (r : PUnit × MemSt nD τ sig (Elt F)) : Prop :=
  ∀ (c : Dev nD) (w : Fin cfg0.W), r.2.mem ((cfg0.spec w).arr.view.loc (c.tc : Thread nD τ)) = (dats m 0 c).arrAt w cfg0.N

set_option backward.isDefEq.respectTransparency.types false in
/-- At the compiled mesh, for any values, from any memory with zero counters: every weakly fair execution of @main
    terminates without a fault, every windowed array ending at `Dat.arrAt … N`. -/
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_split m)
    (X := fun _ => iprop(emp)) (Y := fun _ => iprop(emp)) (Z := fun _ => iprop(emp))
    (hX := fun c => by rw [unscopedRest0_eq]; iintro -; isplitr <;> iempintro)
    (hin := fun c => by
      rw [scopedRest0_eq, show (dats m 0 c).Φ 0 = (BI.emp : sProp 𝕄) from rfl]
      iintro -; iempintro)
    (hout := fun c => by
      rw [scopedRest0_eq, show (dats m 0 c).Φ (Fin.last cfg0.N) = (BI.emp : sProp 𝕄) from rfl]
      iintro -; isplitr <;> iempintro)
    (QY := fun _ _ => True)
    (hY := fun c s' => by
      iintro ⟨-, -, HSI⟩; imodintro
      isplitr; · ipureintro; trivial
      iexact HSI)
    (hQ := fun _ h c w => (h c).1 w)

/-- An input window's array ends as it was launched. -/
theorem arrAt_in_0 (c : Dev nD) : (dats m 0 c).arrAt 0 cfg0.N = m ((c.tc : Thread nD τ).loc main_arg0) :=
  ((dats m 0 c).arrAt_in 0 rfl _).trans (A_eq m c 0)
theorem arrAt_in_2 (c : Dev nD) : (dats m 0 c).arrAt 2 cfg0.N = m ((c.tc : Thread nD τ).loc main_arg1) :=
  ((dats m 0 c).arrAt_in 2 rfl _).trans (A_eq m c 2)

/-- THE FRAME: @main runs to the end, nothing faulting, the two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (arrAt_in_0 m c), (h c 2).trans (arrAt_in_2 m c)⟩) (run_main m ρ)

end Cert.KernelIdeal.Frame

end
-- ==== Proof.Spec.lean ====
/-
  The specification shared by the two programs, on the extended reals.

  Both programs compute, for the adjacency matrix `A` (16384 x 16384) and the embeddings `E` (16384 x 64),
      out[r, q] = act (sum over k < 16384 of A[r, k] * E[k, q]),     act x = x if x >= 0 else x / 2
  (a LeakyReLU of slope one half applied to the matrix product). The reference sums over all 16384 columns at once;
  the kernel sums the first 8192 and the last 8192 separately and adds the two. A finite sum on the extended reals splits
  at any position (addition there is commutative and associative, infinities included), which is all that joins the two:
  no finiteness of the inputs is needed.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SA : Shape := ⟨2, ![16384, 16384]⟩
abbrev SE : Shape := ⟨2, ![16384, 64]⟩

/-- The activation as both programs spell it: compare with zero, keep the value or half of it. -/
def act (x : Ideal .f32) : Ideal .f32 :=
  Scalar.select (FloatOps.cmpf .oge x (FloatOps.ofBits .f32 0x00000000#32)) x
    (FloatOps.mulf (FloatOps.ofBits .f32 0x3F000000#32) x)

/-- Entry (r, q) of the matrix product: the sum over the 16384 columns of `A`'s row r against `E`'s column q. -/
def prod (A : FVec Ideal SA .f32) (E : FVec Ideal SE .f32) (r : Fin 16384) (q : Fin 64) : EReal :=
  ∑ k : Fin 16384, A (ix2 r k) * E (ix2 k q)

/-- The result array as one function of the argument arrays. -/
def G (A : FVec Ideal SA .f32) (E : FVec Ideal SE .f32) : FVec Ideal SE .f32 :=
  fun i => act (prod A E (i 0) (i 1))

/-- A sum over 16384 terms is the sum of the first 8192 plus the sum of the last 8192. -/
theorem sum_halves (f : Fin 16384 → EReal) :
    ∑ k : Fin 16384, f k
      = (∑ k : Fin 8192, f ⟨k.val, by omega⟩) + ∑ k : Fin 8192, f ⟨8192 + k.val, by omega⟩ := by
  rw [← (finCongr (show 8192 + 8192 = 16384 from rfl)).sum_comp f, Fin.sum_univ_add]
  refine congrArg₂ (· + ·) (Finset.sum_congr rfl fun k _ => congrArg f (Fin.ext ?_))
    (Finset.sum_congr rfl fun k _ => congrArg f (Fin.ext ?_))
  · simp
  · simp only [finCongr_apply, Fin.coe_cast, Fin.coe_natAdd]

/-- The matrix product's entry, split at column 8192. -/
theorem prod_halves (A : FVec Ideal SA .f32) (E : FVec Ideal SE .f32) (r : Fin 16384) (q : Fin 64) :
    prod A E r q
      = (∑ k : Fin 8192, A (ix2 r ⟨k.val, by omega⟩) * E (ix2 ⟨k.val, by omega⟩ q))
        + ∑ k : Fin 8192, A (ix2 r ⟨8192 + k.val, by omega⟩) * E (ix2 ⟨8192 + k.val, by omega⟩ q) := by
  unfold prod
  exact sum_halves fun k => A (ix2 r k) * E (ix2 k q)

end Cert.Spec

end
-- ==== Proof.KI.Value.lean ====
/-
  What the idealized kernel leaves in the result array: `Spec.G` of the two argument arrays.

  At grid point t the output block is rows 256 t … 256 t + 255 of the result. Entry (p, q) of what the body stores there is
      act ( sum_{k < 8192} a0[p, k] * e0[k, q]  +  sum_{k < 8192} a1[p, k] * e1[k, q] )
  where a0, a1 are the left and right column halves of rows 256 t … of `adj` (windows 0 and 1: block indices (t, 0) and
  (t, 1)) and e0, e1 the upper and lower row halves of `embeds` (windows 2 and 3: block indices (0, 0) and (1, 0)). So
  a0[p, k] = adj[256 t + p, k], a1[p, k] = adj[256 t + p, 8192 + k], e0[k, q] = embeds[k, q], e1[k, q] = embeds[8192 + k, q],
  and the two half sums are the full sum over the 16384 columns split at 8192 (`Spec.prod_halves`). The 64 output blocks
  tile the result's rows, so the whole array ends at `Spec.G`.
-/
import proofs.«147853_g84799834292721_cont_9to1_m_613_8_alg».proof.Proof.KI.Run
import proofs.«147853_g84799834292721_cont_9to1_m_613_8_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## One matrix product of the body, at an entry -/

theorem lhs_0 (i : S256x64.Idx) (q : dot_S256x8192_S8192x64_S256x64_1_0_0_1_n_n.contr.Idx) : (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide), dif_pos (show (0 : Fin S256x8192.rank) ∈ dot_S256x8192_S8192x64_S256x64_1_0_0_1_n_n.lhsNonContracting by decide)]
  rfl
theorem lhs_1 (i : S256x64.Idx) (q : dot_S256x8192_S8192x64_S256x64_1_0_0_1_n_n.contr.Idx) : (dot_S256x8192_S8192x64_S256x64_1_0_0_1_n_n.lhsIdx i q 1).val = (q ⟨0, by decide⟩).val :=
  dot_S256x8192_S8192x64_S256x64_1_0_0_1_n_n.lhsIdx_val_of_single rfl i q
theorem rhs_0 (i : S256x64.Idx) (q : dot_S256x8192_S8192x64_S256x64_1_0_0_1_n_n.contr.Idx) : (dot_S256x8192_S8192x64_S256x64_1_0_0_1_n_n.rhsIdx i q 0).val = (q ⟨0, by decide⟩).val :=
  dot_S256x8192_S8192x64_S256x64_1_0_0_1_n_n.rhsIdx_val_of_single rfl i q
theorem rhs_1 (i : S256x64.Idx) (q : dot_S256x8192_S8192x64_S256x64_1_0_0_1_n_n.contr.Idx) : (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide), dif_pos (show (1 : Fin S8192x64.rank) ∈ dot_S256x8192_S8192x64_S256x64_1_0_0_1_n_n.rhsNonContracting by decide)]
  rfl

/-- A 256 x 8192 by 8192 x 64 product into a zero accumulator, at entry (p, q): the sum over the 8192 contracted
    positions of row p against column q. -/
theorem mm_apply (a : FVec Ideal S256x8192 .f32) (e : FVec Ideal S8192x64 .f32) (p : Fin 256) (q : Fin 64) :
    FloatOps.matmul dot_S256x8192_S8192x64_S256x64_1_0_0_1_n_n none a e (constant S256x64 .f32 0x00000000#32) (ix2 p q)
      = ∑ k : Fin 8192, a (ix2 p k) * e (ix2 k q) := by
  rw [Ideal.matmul_constant_zero_apply, ← Equiv.sum_comp (ValueIdx.contrEquiv1 dot_S256x8192_S8192x64_S256x64_1_0_0_1_n_n 8192 rfl rfl).symm]
  refine Finset.sum_congr rfl fun k _ => ?_
  have hk := ValueIdx.contrEquiv1_symm_val dot_S256x8192_S8192x64_S256x64_1_0_0_1_n_n 8192 rfl rfl k
  have el : dot_S256x8192_S8192x64_S256x64_1_0_0_1_n_n.lhsIdx (ix2 p q) ((ValueIdx.contrEquiv1 dot_S256x8192_S8192x64_S256x64_1_0_0_1_n_n 8192 rfl rfl).symm k) = ix2 p k := funext fun a => Fin.ext (by
    match a with
    | ⟨0, _⟩ => exact lhs_0 _ _
    | ⟨1, _⟩ => exact (lhs_1 _ _).trans hk)
  have er : dot_S256x8192_S8192x64_S256x64_1_0_0_1_n_n.rhsIdx (ix2 p q) ((ValueIdx.contrEquiv1 dot_S256x8192_S8192x64_S256x64_1_0_0_1_n_n 8192 rfl rfl).symm k) = ix2 k q := funext fun a => Fin.ext (by
    match a with
    | ⟨0, _⟩ => exact (rhs_0 _ _).trans hk
    | ⟨1, _⟩ => exact rhs_1 _ _)
  rw [el, er]

/-! ## The body's stored value, at an entry -/

/-- The stored value at an entry is the activation of the sum of the two products' entries. -/
theorem pay_eq (a0 a1 : FVec Ideal S256x8192 .f32) (e0 e1 : FVec Ideal S8192x64 .f32) (j : S256x64.Idx) :
    k0_pay1 (F := Ideal) a0 e0 a1 e1 j
      = Cert.Spec.act (FloatOps.matmul dot_S256x8192_S8192x64_S256x64_1_0_0_1_n_n none a0 e0 (constant S256x64 .f32 0x00000000#32) j
          + FloatOps.matmul dot_S256x8192_S8192x64_S256x64_1_0_0_1_n_n none a1 e1 (constant S256x64 .f32 0x00000000#32) j) := rfl

/-- If the four loaded blocks are the stated parts of `A` (row r, the two column halves) and `E` (column q', the two
    row halves), the stored value at (p, q) is the specification's entry (r, q'). -/
theorem pay_spec (A : FVec Ideal Cert.Spec.SA .f32) (E : FVec Ideal Cert.Spec.SE .f32)
    (a0 a1 : FVec Ideal S256x8192 .f32) (e0 e1 : FVec Ideal S8192x64 .f32) (r : Fin 16384) (q' : Fin 64) (p : Fin 256) (q : Fin 64)
    (h0 : ∀ k : Fin 8192, a0 (ix2 p k) = A (ix2 r ⟨k.val, by omega⟩))
    (h1 : ∀ k : Fin 8192, a1 (ix2 p k) = A (ix2 r ⟨8192 + k.val, by omega⟩))
    (h2 : ∀ k : Fin 8192, e0 (ix2 k q) = E (ix2 ⟨k.val, by omega⟩ q'))
    (h3 : ∀ k : Fin 8192, e1 (ix2 k q) = E (ix2 ⟨8192 + k.val, by omega⟩ q')) :
    k0_pay1 (F := Ideal) a0 e0 a1 e1 (ix2 p q) = Cert.Spec.act (Cert.Spec.prod A E r q') := by
  rw [pay_eq, mm_apply, mm_apply, Cert.Spec.prod_halves]
  simp only [h0, h1, h2, h3]

/-! ## From blocks to the array -/

theorem hz : (![0, 0] : Fin 2 → Nat) = fun _ => 0 := funext fun a => by fin_cases a <;> rfl

/-- The printed index maps over the grid: windows 0 and 1 follow the output's row block, at column blocks 0 and 1; windows 2
    and 3 sit at row blocks 0 and 1; the output's row block is the point itself. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = 1 ∧ win0_3.index t (1 : Fin 2) = 0
    ∧ win0_4.index t (0 : Fin 2) = t.val ∧ win0_4.index t (1 : Fin 2) = 0 :=
  (by decide +kernel : ∀ t : Fin grid0.N, _)

set_option maxRecDepth 400000 in
/-- WHAT POINT `t` WRITES BACK is block `t` of `Spec.G` of the argument arrays. -/
theorem flushed_eq (c : Dev nD) (t : Fin cfg0.N) :
    (dats m 0 c).flushed 4 t
      = ((cfg0.win 4).blk t).view.read (Elt Ideal) (Cert.Spec.G (V m c main_arg0) (V m c main_arg1)) := by
  show (cfg0.win 4).cut (grid0.coords t) ((dats m 0 c).after 4 t) = _
  rw [after_4]
  unfold outBlk
  rw [View.canon_unit_zero hz]
  simp only [View.ld_unit_zero (S := S256x8192) hz, View.ld_unit_zero (S := S8192x64) hz]
  obtain ⟨i00, i01, i10, i11, i20, i21, i30, i31, i40, i41⟩ := idx_facts t
  have ht : t.val < 64 := t.isLt
  funext j
  obtain ⟨p, q, rfl⟩ : ∃ (p : Fin 256) (q : Fin 64), j = ix2 p q := ⟨j 0, j 1, eq_ix2 j⟩
  have hp : p.val < 256 := p.isLt
  have hq : q.val < 64 := q.isLt
  show k0_pay1 (F := Ideal) (iblk m c 0 t) (iblk m c 2 t) (iblk m c 1 t) (iblk m c 3 t) (ix2 p q)
    = Cert.Spec.act (Cert.Spec.prod (V m c main_arg0) (V m c main_arg1)
        ((((cfg0.win 4).blk t).view.emb (ix2 p q)) 0) ((((cfg0.win 4).blk t).view.emb (ix2 p q)) 1))
  refine pay_spec (V m c main_arg0) (V m c main_arg1) (iblk m c 0 t) (iblk m c 1 t) (iblk m c 2 t) (iblk m c 3 t)
    ((((cfg0.win 4).blk t).view.emb (ix2 p q)) 0) ((((cfg0.win 4).blk t).view.emb (ix2 p q)) 1) p q ?_ ?_ ?_ ?_
  · intro k
    have hk : k.val < 8192 := k.isLt
    show V m c main_arg0 (((cfg0.win 0).blk t).view.emb (ix2 p k)) = V m c main_arg0 _
    refine congrArg _ (funext fun a => Fin.ext ?_)
    match a with
    | ⟨0, _⟩ => show win0_0.index t (0 : Fin 2) * 256 + 1 * p.val = win0_4.index t (0 : Fin 2) * 256 + 1 * p.val; omega
    | ⟨1, _⟩ => show win0_0.index t (1 : Fin 2) * 8192 + 1 * k.val = k.val; omega
  · intro k
    have hk : k.val < 8192 := k.isLt
    show V m c main_arg0 (((cfg0.win 1).blk t).view.emb (ix2 p k)) = V m c main_arg0 _
    refine congrArg _ (funext fun a => Fin.ext ?_)
    match a with
    | ⟨0, _⟩ => show win0_1.index t (0 : Fin 2) * 256 + 1 * p.val = win0_4.index t (0 : Fin 2) * 256 + 1 * p.val; omega
    | ⟨1, _⟩ => show win0_1.index t (1 : Fin 2) * 8192 + 1 * k.val = 8192 + k.val; omega
  · intro k
    have hk : k.val < 8192 := k.isLt
    show V m c main_arg1 (((cfg0.win 2).blk t).view.emb (ix2 k q)) = V m c main_arg1 _
    refine congrArg _ (funext fun a => Fin.ext ?_)
    match a with
    | ⟨0, _⟩ => show win0_2.index t (0 : Fin 2) * 8192 + 1 * k.val = k.val; omega
    | ⟨1, _⟩ => show win0_2.index t (1 : Fin 2) * 64 + 1 * q.val = win0_4.index t (1 : Fin 2) * 64 + 1 * q.val; omega
  · intro k
    have hk : k.val < 8192 := k.isLt
    show V m c main_arg1 (((cfg0.win 3).blk t).view.emb (ix2 k q)) = V m c main_arg1 _
    refine congrArg _ (funext fun a => Fin.ext ?_)
    match a with
    | ⟨0, _⟩ => show win0_3.index t (0 : Fin 2) * 8192 + 1 * k.val = 8192 + k.val; omega
    | ⟨1, _⟩ => show win0_3.index t (1 : Fin 2) * 64 + 1 * q.val = win0_4.index t (1 : Fin 2) * 64 + 1 * q.val; omega

/-- An index of the result is in point `t`'s block iff each coordinate is in the block's range on its axis. -/
theorem mem_blk (t : Fin cfg0.N) (i : S16384x64.Idx) :
    i ∈ ((cfg0.win 4).blk t).view.set ↔ ∀ a : Fin 2, win0_4.index t a * S256x64.size a ≤ (i a).val ∧ (i a).val < win0_4.index t a * S256x64.size a + S256x64.size a := by
  show i ∈ ((View.whole main_v0).slice (win0_4.rect t)).set ↔ _
  rw [View.set_slice_whole, Rect.mem_set_unit]
  exact Iff.rfl

/-- The 64 row blocks cover the result: row r lies in the block of point r / 256. -/
theorem cover (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  let t : Fin cfg0.N := ⟨(i 0).val / 256, by rw [show cfg0.N = 64 from N_0]; omega⟩
  obtain ⟨-, -, -, -, -, -, -, -, i40, i41⟩ := idx_facts t
  have htv : t.val = (i 0).val / 256 := rfl
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 64 ≤ (i 1).val ∧ (i 1).val < win0_4.index t (1 : Fin 2) * 64 + 64; omega

/-- THE RESULT ARRAY after the run. -/
theorem final (c : Dev nD) :
    (dats m 0 c).arrAt 4 cfg0.N
      = Cert.Spec.G (m ((c.tc : Thread nD τ).loc main_arg0)) (m ((c.tc : Thread nD τ).loc main_arg1)) :=
  (dats m 0 c).arrAt_eq_of_cover 4 (Cert.Spec.G (V m c main_arg0) (V m c main_arg1)) (fun t _ => flushed_eq m c t) cover

/-- The idealized kernel's run: the result at `Spec.G` of the arguments, the arguments unchanged. -/
theorem run : θ_run defs (onTc (τ := τ) (main (F := Ideal))) ⟨m, fun _ => 0, ρ⟩ fun r => ∀ c : Dev nD,
      r.2.mem ((c.tc : Thread nD τ).loc main_v0)
        = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c 4).trans (final m c), (h c 0).trans (arrAt_in_0 m c), (h c 2).trans (arrAt_in_2 m c)⟩)
    (run_main m ρ)

end Cert.KernelIdeal.KValue

end
-- ==== Proof.RefValue.lean ====
/-
  The reference program's result is the specification `Spec.G` of its two argument arrays, at the ideal instance.

  The reference is: one `dot_general` contracting `adj`'s columns against `embeds`' rows, a comparison with a
  broadcast zero, a product with a broadcast one half, and a select. Read at an index (r, q), the `dot_general` is the
  sum over k of adj[r, k] * embeds[k, q]; the other operations act on that one entry.
-/
import proofs.«147853_g84799834292721_cont_9to1_m_613_8_alg».proof.Defs
import proofs.«147853_g84799834292721_cont_9to1_m_613_8_alg».proof.Proof.Gen.ReferenceIdeal.Read
import proofs.«147853_g84799834292721_cont_9to1_m_613_8_alg».proof.Proof.Spec

noncomputable section

namespace Cert.ReferenceIdeal.RefValue

open Cert.ReferenceIdeal Cert.ReferenceIdeal.Read Idealize.ShloMosaic Idealize.ShloMosaic.ValueIdx

/-- The operand indices of the `dot_general` at output index `i` and contraction index `k`: (row of `i`, k) and
    (k, column of `i`). -/
theorem lidx_eq (i : S16384x64.Idx) (k : Fin 16384) : lidx_main_v0 i k = ix2 (i 0) k :=
  funext fun a => by match a with | ⟨0, _⟩ => rfl | ⟨1, _⟩ => rfl
theorem ridx_eq (i : S16384x64.Idx) (k : Fin 16384) : ridx_main_v0 i k = ix2 k (i 1) :=
  funext fun a => by match a with | ⟨0, _⟩ => rfl | ⟨1, _⟩ => rfl

/-- The reference's last stage is `Spec.G` of the arguments, entry by entry. -/
theorem result_eq (A : FVec Ideal S16384x16384 .f32) (E : FVec Ideal S16384x64 .f32) :
    val_main_v5 (F := Ideal) A E = Cert.Spec.G A E := by
  funext i
  rw [val_main_v5_apply, val_main_v2_apply, val_main_v4_apply, val_main_v1_apply, val_main_v3_apply,
    val_main_cst_apply, val_main_cst_0_apply, val_main_v0_apply]
  simp only [lidx_eq, ridx_eq]
  rfl

end Cert.ReferenceIdeal.RefValue

end
-- ==== Proof.lean ====
/-
  out = LeakyReLU_{1/2}(adj · embeds), adj 16384 x 16384, embeds 16384 x 64: a Pallas kernel against its jnp reference.

  The kernel walks 64 row blocks of 256 rows. At each it reads the row block of `adj` as two column halves (two windows
  on the one array) and `embeds` as two row halves (two more windows on one array), multiplies half by half, adds the two
  products and applies the activation. The reference multiplies the whole matrices once and applies the same activation.
  On the extended reals the two agree entry by entry because a sum over 16384 terms is the sum of its first and last 8192
  (`Spec.sum_halves`); no finiteness of the inputs is used, so the precondition is never opened.

  The frames of the two kernel programs (every execution ends, nothing faults, the arguments unchanged) come from one
  launch of the pipeline rule in which each shared array's share is split between its two windows (`K/Run.lean`,
  `KI/Run.lean`); the reference's frame is its run with the result dropped. The idealization rewrote nothing, so
  `preserves` is `True`.
-/
import proofs.«147853_g84799834292721_cont_9to1_m_613_8_alg».proof.Defs
import proofs.«147853_g84799834292721_cont_9to1_m_613_8_alg».proof.Proof.Gen.Kernel
import proofs.«147853_g84799834292721_cont_9to1_m_613_8_alg».proof.Proof.Gen.KernelIdeal
import proofs.«147853_g84799834292721_cont_9to1_m_613_8_alg».proof.Proof.Gen.ReferenceIdeal
import proofs.«147853_g84799834292721_cont_9to1_m_613_8_alg».proof.Proof.Gen.Pre_finite_inputs
import proofs.«147853_g84799834292721_cont_9to1_m_613_8_alg».proof.Proof.K.Run
import proofs.«147853_g84799834292721_cont_9to1_m_613_8_alg».proof.Proof.KI.Value
import proofs.«147853_g84799834292721_cont_9to1_m_613_8_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at `Spec.G` of their (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
